-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x32 .f32) (main_arg10 : FVec F S32 .f32) (main_arg11 : FVec F S32x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S1600000 .f32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1600000x128 : Shape := ⟨2, ![1600000, 128]⟩
abbrev S1x32 : Shape := ⟨2, ![1, 32]⟩
abbrev S1x1 : Shape := ⟨2, ![1, 1]⟩
abbrev S5000x32 : Shape := ⟨2, ![5000, 32]⟩

abbrev nBuf : Space → Nat
  | .hbm => 65
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .bf16⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x128, .f32⟩
  | .hbm, ⟨46, _⟩ => ⟨S100000x128, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .bf16⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S1x32, .f32⟩
  | .hbm, ⟨63, _⟩ => ⟨S1x1, .f32⟩
  | .hbm, ⟨64, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .bf16⟩
  | .local _ .vmem, ⟨3, _⟩ => ⟨S5000x64, .bf16⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S32_S1x32 : S32.ShapeCasts S1x32
  shapeCasts_S1_S1x1 : S1.ShapeCasts S1x1
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .bf16 = 32 ∨ (Rect.block (s := S100000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x32.size a ≤ S128x32.size a
  hwx1_6 : ∀ i : grid1.Coords, EltTy.bits .f32 = 32 ∨ (Rect.block (s := S128x32) S128x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x1.size a ≤ S32x1.size a
  hwx1_8 : ∀ i : grid1.Coords, EltTy.bits .f32 = 32 ∨ (Rect.block (s := S32x1) S32x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S32x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x32 : Shape := ⟨2, ![100000, 32]⟩
abbrev S1x32 : Shape := ⟨2, ![1, 32]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's whole run with its result named.

  The program is two kernel launches among stretches of host operations.  Its contents at each boundary are a fold from
  the launch memory: after the first stretch, after the first launch (its output array at what its write-backs leave),
  after the second stretch, after the second launch.  Every weakly fair execution terminates, nothing faulting, in a state
  whose unscoped buffers hold the last boundary's contents; read at the result buffer that is the second launch's output
  array after its write-backs, and read at an argument it is the argument as launched.
-/
import proofs.«178692_j18760417149681_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Named

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«178692_j18760417149681_2_alg».proof.Proof.LibDense
import proofs.«178692_j18760417149681_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«178692_j18760417149681_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«178692_j18760417149681_2_alg».proof.Proof.LibRowScale
import proofs.«178692_j18760417149681_2_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibSageDense.lean ====
/-
  One dense step of a mean-aggregating graph layer, on the extended reals, at any extents.

  The step takes the mean `A` of the neighbours' rows, the nodes' own rows `X`, two weight matrices and a one-row bias,
  and forms `A · wl + X · wr + b` (`lin`), or that rectified (`hid`).  The kernel spells it on the matrix unit — both
  products into zero accumulators, summed, then the bias row broadcast along the rows and added — and the host spells it
  with the bias added BEFORE the second product: `(A · wl + b) + X · wr`.  Addition of extended reals is commutative and
  associative, so the two agree at every entry, infinite ones included.  An entry `(p, q)` of the result depends on row
  `p` of `A` and of `X`, on column `q` of the weights and on entry `q` of the bias only, which is what lets a block of rows
  be computed from a block of rows.

  The mean: the kernel multiplies the summed rows by the reciprocal of the clamped degree, the host divides by the clamped
  degree.  A degree clamped below by one is never zero, and off zero a quotient is the product with the inverse, so both
  are the rows scaled by the column of reciprocals.
-/
import proofs.«178692_j18760417149681_2_alg».proof.Proof.LibSageLayer

noncomputable section

open scoped BigOperators

namespace Cert.SageDense

open Idealize.ShloMosaic Idealize.ShloMosaic.ValueIdx Cert.Dense Cert.RowScale Cert.BiasRow

/-- The two products summed: `A · wl + X · wr`. -/
def comb {M K N : ℕ} (A X : Mat M K) (wl wr : Mat K N) : Mat M N := fun i => mm A wl i + mm X wr i

/-- The output step: the two products plus a one-row bias. -/
def lin {M K N : ℕ} (A X : Mat M K) (wl wr : Mat K N) (b : Mat 1 N) : Mat M N := addRow (comb A X wl wr) b

/-- The hidden step: the same, rectified. -/
def hid {M K N : ℕ} (A X : Mat M K) (wl wr : Mat K N) (b : Mat 1 N) : Mat M N := reluBias (comb A X wl wr) b

/-- An entry of the summed products depends on one row of each left operand and one column of each weight matrix. -/
theorem comb_at {M M' K N N' : ℕ} (A X : Mat M K) (wl wr : Mat K N) (A' X' : Mat M' K) (wl' wr' : Mat K N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i))) :
    comb A' X' wl' wr' j = comb A X wl wr i := by
  unfold comb
  rw [Cert.BiasRow.mm_at A wl A' wl' j i hA hl, Cert.BiasRow.mm_at X wr X' wr' j i hX hr]

theorem lin_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    lin A' X' wl' wr' b' j = lin A X wl wr b i :=
  Cert.BiasRow.addRow_at _ b _ b' j i (comb_at A X wl wr A' X' wl' wr' j i hA hX hl hr) hb

theorem hid_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    hid A' X' wl' wr' b' j = hid A X wl wr b i :=
  Cert.BiasRow.reluBias_at _ b _ b' j i (comb_at A X wl wr A' X' wl' wr' j i hA hX hl hr) hb

/-! ## The matrix unit's spelling -/

/-- Both products on the matrix unit into zero accumulators, summed; the operands' change of float format is the
    identity on the extended reals. -/
theorem vecComb {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (lt : FTy.bf16.bits < FTy.f32.bits) :
    addf (matmul (F := Ideal) D none (truncf .bf16 A lt) (truncf .bf16 wl lt) (constant ⟨2, ![M, N]⟩ .f32 0x00000000#32))
        (matmul (F := Ideal) D none (truncf .bf16 X lt) (truncf .bf16 wr lt) (constant ⟨2, ![M, N]⟩ .f32 0x00000000#32))
      = comb A X wl wr := by
  rw [matmul_zero_eq_mm D h1 h2 h3 h4 h5 h6, matmul_zero_eq_mm D h1 h2 h3 h4 h5 h6]
  rfl

theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)
      = lin A X wl wr b := by
  rw [vecComb D h1 h2 h3 h4 h5 h6 A X wl wr lt]
  exact vecAddRow (comb A X wl wr) b hb

theorem vecHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    maximumf (addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)) (broadcast ⟨2, ![M, N]⟩ (Scalar.ofBits (F := Ideal) .f32 0x00000000#32))
      = hid A X wl wr b := by
  rw [vecComb D h1 h2 h3 h4 h5 h6 A X wl wr lt]
  exact vecReluBias (comb A X wl wr) b hb

/-! ## The host's spelling -/

/-- The host adds the bias before the second product; the sum is the same. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr)
      = lin A X wl wr (row b) := by
  rw [hostDot_eq_mm D h1 h2 h3 h4 h5 h6 none A wl, hostDot_eq_mm D h1 h2 h3 h4 h5 h6 none X wr,
    hostAddRow (mm A wl) b hb1 hb2]
  funext i
  show (mm A wl i + row b (ix2 (0 : Fin 1) (c1 i))) + mm X wr i = (mm A wl i + mm X wr i) + row b (ix2 (0 : Fin 1) (c1 i))
  exact add_right_comm _ _ _

/-- The maximum with a scalar zero broadcast everywhere is the maximum with zero at every entry. -/
theorem hostRelu {s : Shape} (Y : FVec Ideal s .f32) (h0 : (⟨0, ![]⟩ : Shape).BroadcastsInDim s ![]) :
    maximumf Y (broadcastInDim s ![] h0 (constant (F := Ideal) ⟨0, ![]⟩ .f32 0x00000000#32)) = fun i => max (Y i) 0 := by
  funext i
  show max (Y i) (broadcastInDim s ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

theorem hostHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr))
        (broadcastInDim ⟨2, ![M, N]⟩ ![] h0 (constant (F := Ideal) ⟨0, ![]⟩ .f32 0x00000000#32))
      = hid A X wl wr (row b) := by
  rw [hostLin D h1 h2 h3 h4 h5 h6 A X wl wr b hb1 hb2, hostRelu]
  rfl

/-! ## The mean -/

/-- The rows of `G` scaled by the reciprocals of the clamped degrees. -/
def meanRows {M N : ℕ} (G : FVec Ideal ⟨2, ![M, N]⟩ .f32) (one d : FVec Ideal ⟨1, ![M]⟩ .f32) : Mat M N :=
  scaleRows G (col (Host.divf (F := Ideal) one (maximumf (F := Ideal) d one)))

/-- The kernel's form: the summed rows times the reciprocal of the clamped degree, broadcast to a column and along
    the rows. -/
theorem mulMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1
        (Host.divf (F := Ideal) one (maximumf (F := Ideal) d one))))
      = meanRows G one d :=
  hostScaleRows G _ h1 h2

/-- The host's form: the summed rows divided by the clamped degree, when the clamp is at one. -/
theorem divMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hone : ∀ i, one i = 1) :
    Host.divf (F := Ideal) G (broadcastInDim ⟨2, ![M, N]⟩ ![0, 1] h2 (broadcastInDim ⟨2, ![M, 1]⟩ ![0] h1
        (maximumf (F := Ideal) d one)))
      = meanRows G one d :=
  Cert.Sage.hostDivRows G (maximumf (F := Ideal) d one) one h1 h2
    (fun i => by
      show max (d i) (one i) ≠ 0
      rw [hone i]
      exact Cert.Sage.max_one_ne_zero (d i))
    hone

/-- A scalar one broadcast to a vector is one at every entry. -/
theorem bcastOne {s : Shape} (h0 : (⟨0, ![]⟩ : Shape).BroadcastsInDim s ![]) (i : s.Idx) :
    broadcastInDim s ![] h0 (constant (F := Ideal) ⟨0, ![]⟩ .f32 0x3F800000#32) i = 1 := by
  rw [broadcastInDim_apply ![] h0 _ i ix0 (fun a => a.elim0)]
  show Ideal.ofBits .f32 0x3F800000#32 = 1
  exact Ideal.ofBits_one_f32

end Cert.SageDense

end
-- ==== Proof.LibSageNet.lean ====
/-
  Two mean-aggregating graph layers and a two-step linear head, as whole-array functions on the extended reals.

  A layer takes the sum `A` of every node's in-neighbours' rows, the nodes' own rows `X`, a per-node factor `s` (one
  column: the reciprocal of the in-degree clamped below by one), two weight matrices and a one-row bias, and forms
  `(A scaled row by row by s) · wl + X · wr + b`.  The network applies a layer to the features, aggregates the result
  again, applies a second layer, and then two affine maps `· w + c` in a row.  The aggregation is a parameter here: the
  network is stated for any two maps on whole arrays, since both programs aggregate by the same gather and segment sum
  and nothing of it needs opening.

  Entry `(p, r)` of a layer, and of the second layer followed by the head, depends on row `p` of the aggregate, of
  the features and of the factor only: that is what lets a block of rows be computed from a block of rows.
-/
import proofs.«178692_j18760417149681_2_alg».proof.Proof.LibSageDense

noncomputable section

open scoped BigOperators

namespace Cert.SageNet

open Idealize.ShloMosaic Idealize.ShloMosaic.ValueIdx Cert.Dense Cert.RowScale Cert.BiasRow Cert.SageDense

/-- One layer: the aggregate's rows scaled by the per-node factor, times `wl`, plus the features times `wr`, plus
    the bias row. -/
def layer {M K N : ℕ} (A X : Mat M K) (s : Mat M 1) (wl wr : Mat K N) (b : Mat 1 N) : Mat M N :=
  lin (scaleRows A s) X wl wr b

/-- A layer followed by the two affine maps of the head. -/
def top {M K N P Q : ℕ} (A H : Mat M K) (s : Mat M 1) (wl wr : Mat K N) (b : Mat 1 N) (w1 : Mat N P) (c1' : Mat 1 P)
    (w2 : Mat P Q) (c2 : Mat 1 Q) : Mat M Q :=
  addRow (mm (addRow (mm (layer A H s wl wr b) w1) c1') w2) c2

/-- The whole network over two aggregation maps. -/
def net {M K N P Q : ℕ} (agg1 : Mat M K → Mat M K) (agg2 : Mat M N → Mat M N) (s : Mat M 1) (x : Mat M K)
    (wl1 wr1 : Mat K N) (b1 : Mat 1 N) (wl2 wr2 : Mat N N) (b2 : Mat 1 N) (w1 : Mat N P) (c1' : Mat 1 P)
    (w2 : Mat P Q) (c2 : Mat 1 Q) : Mat M Q :=
  top (agg2 (layer (agg1 x) x s wl1 wr1 b1)) (layer (agg1 x) x s wl1 wr1 b1) s wl2 wr2 b2 w1 c1' w2 c2

/-- A layer's entry depends on one row of the aggregate, of the features and of the factor. -/
theorem layer_rows {M M' K N : ℕ} (A X : Mat M K) (s : Mat M 1) (A' X' : Mat M' K) (s' : Mat M' 1)
    (wl wr : Mat K N) (b : Mat 1 N) (p' : Fin M') (p : Fin M) (q : Fin N)
    (hA : ∀ k : Fin K, A' (ix2 p' k) = A (ix2 p k)) (hX : ∀ k : Fin K, X' (ix2 p' k) = X (ix2 p k))
    (hs : s' (ix2 p' (0 : Fin 1)) = s (ix2 p (0 : Fin 1))) :
    layer A' X' s' wl wr b (ix2 p' q) = layer A X s wl wr b (ix2 p q) := by
  show (mm (scaleRows A' s') wl (ix2 p' q) + mm X' wr (ix2 p' q)) + b (ix2 (0 : Fin 1) q)
    = (mm (scaleRows A s) wl (ix2 p q) + mm X wr (ix2 p q)) + b (ix2 (0 : Fin 1) q)
  simp only [mm_apply, scaleRows_apply, hA, hX, hs]

/-- The second layer and the head: an entry depends on one row of the aggregate, of the hidden rows and of the factor. -/
theorem top_rows {M M' K N P Q : ℕ} (A H : Mat M K) (s : Mat M 1) (A' H' : Mat M' K) (s' : Mat M' 1)
    (wl wr : Mat K N) (b : Mat 1 N) (w1 : Mat N P) (c1' : Mat 1 P) (w2 : Mat P Q) (c2 : Mat 1 Q)
    (p' : Fin M') (p : Fin M) (r : Fin Q)
    (hA : ∀ k : Fin K, A' (ix2 p' k) = A (ix2 p k)) (hH : ∀ k : Fin K, H' (ix2 p' k) = H (ix2 p k))
    (hs : s' (ix2 p' (0 : Fin 1)) = s (ix2 p (0 : Fin 1))) :
    top A' H' s' wl wr b w1 c1' w2 c2 (ix2 p' r) = top A H s wl wr b w1 c1' w2 c2 (ix2 p r) := by
  show mm (addRow (mm (layer A' H' s' wl wr b) w1) c1') w2 (ix2 p' r) + c2 (ix2 (0 : Fin 1) r)
    = mm (addRow (mm (layer A H s wl wr b) w1) c1') w2 (ix2 p r) + c2 (ix2 (0 : Fin 1) r)
  rw [mm_apply, mm_apply]
  refine congrArg (· + c2 (ix2 (0 : Fin 1) r)) (Finset.sum_congr rfl fun k _ => ?_)
  rw [addRow_apply, addRow_apply, mm_apply, mm_apply]
  refine congrArg (fun t => (t + c1' (ix2 (0 : Fin 1) k)) * w2 (ix2 k r)) (Finset.sum_congr rfl fun k' _ => ?_)
  rw [layer_rows A H s A' H' s' wl wr b p' p k' hA hH hs]

end Cert.SageNet

end
-- ==== Proof.Blocks.lean ====
/-
  What the two kernel bodies compute on a block, on the extended reals.

  The first body multiplies the block of summed neighbour rows by the block's column of per-node factors, takes two
  products on the matrix unit into zero accumulators (that block times one weight matrix, the block of the nodes' own rows
  times the other), adds them and adds the one-row bias: one layer of the network on the block.  The second body does the
  same and then twice more a product with a weight matrix plus a one-row bias: the second layer and the head on the block.
  A change of float format is the identity on the extended reals, and so is a cast of a shape to itself.
-/
import proofs.«178692_j18760417149681_2_alg».proof.Proof.Gen.KernelIdeal.Skeleton
import proofs.«178692_j18760417149681_2_alg».proof.Proof.LibSageNet

noncomputable section

namespace Cert.KernelIdeal.Blocks

open Cert.KernelIdeal Cert.KernelIdeal.Gen Idealize.ShloMosaic Idealize.ShloMosaic.ValueIdx
open Cert.Dense Cert.RowScale Cert.BiasRow Cert.SageDense Cert.SageNet

/-- The first body's stored value is one layer of the block. -/
theorem layer_block (x0 : Vec Ideal S5000x64 .f32) (x2 : Vec Ideal S5000x1 .f32) (x1 : Vec Ideal S5000x64 .bf16)
    (x3 x4 : Vec Ideal S64x128 .f32) (x5 : Vec Ideal S1x128 .f32) :
    k0_pay1 (F := Ideal) x0 x2 x1 x3 x4 x5 = layer x0 x1 x2 x3 x4 x5 := by
  unfold k0_pay1
  simp only [shapeCast_self]
  rw [vecScaleRows x0 x2,
    matmul_zero_eq_mm dot_S5000x64_S64x128_S5000x128_1_0_0_1_n_n rfl rfl rfl rfl rfl rfl,
    matmul_zero_eq_mm dot_S5000x64_S64x128_S5000x128_1_0_0_1_n_n rfl rfl rfl rfl rfl rfl,
    vecAddRow]
  rfl

/-- The second body's stored value is the second layer and the head of the block. -/
theorem top_block (x0 : Vec Ideal S5000x128 .f32) (x2 : Vec Ideal S5000x1 .f32) (x1 : Vec Ideal S5000x128 .bf16)
    (x3 x4 : Vec Ideal S128x128 .f32) (x5 : Vec Ideal S1x128 .f32) (x6 : Vec Ideal S128x32 .f32)
    (x7 : Vec Ideal S1x32 .f32) (x8 : Vec Ideal S32x1 .f32) (x9 : Vec Ideal S1x1 .f32) :
    k1_pay1 (F := Ideal) (k1_pay2 x0 x2 x1 x3 x4 x5 x6 x7 x8) (k1_pay3 x9) = top x0 x1 x2 x3 x4 x5 x6 x7 x8 x9 := by
  unfold k1_pay1 k1_pay2 k1_pay3
  simp only [shapeCast_self]
  rw [vecScaleRows x0 x2,
    matmul_zero_eq_mm dot_S5000x128_S128x128_S5000x128_1_0_0_1_n_n rfl rfl rfl rfl rfl rfl,
    matmul_zero_eq_mm dot_S5000x128_S128x128_S5000x128_1_0_0_1_n_n rfl rfl rfl rfl rfl rfl,
    vecAddRow,
    matmul_zero_eq_mm dot_S5000x128_S128x32_S5000x32_1_0_0_1_n_n rfl rfl rfl rfl rfl rfl,
    vecAddRow,
    matmul_zero_eq_mm dot_S5000x32_S32x1_S5000x1_1_0_0_1_n_n rfl rfl rfl rfl rfl rfl,
    vecAddRow]
  rfl

end Cert.KernelIdeal.Blocks

end
-- ==== Proof.Region0.lean ====
/-
  The first kernel launch: its output array after the run, as one function of the arrays it finds.

  The launch walks twenty grid points; point `t` takes rows `5000·t … 5000·t + 4999` of the summed neighbour rows, of the
  nodes' own rows and of the per-node factor, together with the two whole weight matrices and the whole bias row, and writes
  back rows `5000·t … 5000·t + 4999` of the output.  What it writes is one layer of its block, and a layer's row depends on
  the same row of its three row-wise operands only, so the block written is that block of ONE whole-array layer of the
  arrays as the launch finds them.  The twenty blocks tile the output's rows, so after the run the output array is that layer.
-/
import proofs.«178692_j18760417149681_2_alg».proof.Proof.Gen.KernelIdeal.Frame
import proofs.«178692_j18760417149681_2_alg».proof.Proof.Blocks

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Dense Cert.RowScale Cert.BiasRow Cert.SageDense Cert.SageNet

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: the row-wise windows take block `t` of the rows, the weights and the bias
    their whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer of the arrays as the launch finds them. -/
def whole (c : Dev nD) : S100000x128.Idx → EReal :=
  layer (V c main_v24 : S100000x64.Idx → EReal) (V c main_v13 : S100000x64.Idx → EReal)
    (V c main_v12 : S100000x1.Idx → EReal) (V c main_arg3 : S64x128.Idx → EReal) (V c main_arg4 : S64x128.Idx → EReal)
    (V c main_v25 : S1x128.Idx → EReal)

/-- A layer of a block of rows, read at a block index, is the layer of the whole arrays at the array index the block index
    sits at, when the blocks are those rows of the whole arrays. -/
theorem block_layer (A X : Mat 100000 64) (s : Mat 100000 1) (wl wr : Mat 64 128) (b : Mat 1 128)
    (a' x' : Mat 5000 64) (s' : Mat 5000 1) (wl' wr' : Mat 64 128) (b' : Mat 1 128)
    (j : S5000x128.Idx) (i : S100000x128.Idx) (t : ℕ)
    (hi0 : (i 0).val = t * 5000 + (j 0).val) (hi1 : (i 1).val = (j 1).val)
    (ha : ∀ (p : Fin 5000) (k : Fin 64) (P : Fin 100000), P.val = t * 5000 + p.val → a' (ix2 p k) = A (ix2 P k))
    (hx : ∀ (p : Fin 5000) (k : Fin 64) (P : Fin 100000), P.val = t * 5000 + p.val → x' (ix2 p k) = X (ix2 P k))
    (hs : ∀ (p : Fin 5000) (P : Fin 100000), P.val = t * 5000 + p.val → s' (ix2 p (0 : Fin 1)) = s (ix2 P (0 : Fin 1)))
    (hl : wl' = wl) (hr : wr' = wr) (hb : b' = b) :
    layer a' x' s' wl' wr' b' j = layer A X s wl wr b i := by
  subst hl hr hb
  obtain ⟨p', q', rfl⟩ : ∃ (p' : Fin 5000) (q' : Fin 128), j = ix2 p' q' := ⟨j 0, j 1, eq_ix2 j⟩
  obtain ⟨p, q, rfl⟩ : ∃ (p : Fin 100000) (q : Fin 128), i = ix2 p q := ⟨i 0, i 1, eq_ix2 i⟩
  have hq : q = q' := Fin.ext hi1
  subst hq
  exact layer_rows A X s a' x' s' wl' wr' b' p' p q (fun k => ha p' k p hi0) (fun k => hx p' k p hi0) (hs p' p hi0)

/-- What point `t` writes back is block `t` of the whole-array layer. -/
theorem flushed_eq (c : Dev nD) (t : Fin cfg0.N) :
    (dat0 (F := Ideal) V c).flushed 6 t = ((cfg0.win 6).blk t).view.read (Elt Ideal) (whole V c) := by
  show (cfg0.win 6).cut (grid0.coords t) ((dat0 (F := Ideal) V c).after 6 t) = _
  rw [after0_6]
  unfold out0_6
  rw [View.canon_unit_zero off_zero]
  simp only [View.ld_unit_zero (S := S5000x64) off_zero, View.ld_unit_zero (S := S5000x1) off_zero,
    View.ld_unit_zero (S := S64x128) off_zero, View.ld_unit_zero (S := S1x128) off_zero]
  rw [Cert.KernelIdeal.Blocks.layer_block]
  obtain ⟨e00, e01, e10, e11, e20, e21, e30, e31, e40, e41, e50, e51, e60, e61⟩ := idx_facts t
  funext j
  show layer (iblk0 V c 0 t) (iblk0 V c 1 t) (iblk0 V c 2 t) (iblk0 V c 3 t) (iblk0 V c 4 t) (iblk0 V c 5 t) j
    = whole V c (((cfg0.win 6).blk t).view.emb j)
  unfold whole
  refine block_layer (V c main_v24) (V c main_v13) (V c main_v12) (V c main_arg3) (V c main_arg4) (V c main_v25)
    (iblk0 V c 0 t) (iblk0 V c 1 t) (iblk0 V c 2 t) (iblk0 V c 3 t) (iblk0 V c 4 t) (iblk0 V c 5 t)
    j (((cfg0.win 6).blk t).view.emb j) t.val ?_ ?_ ?_ ?_ ?_ ?_ ?_ ?_
  · show win0_6.index t (0 : Fin 2) * 5000 + 1 * (j 0).val = t.val * 5000 + (j 0).val
    rw [e60]; omega
  · show win0_6.index t (1 : Fin 2) * 128 + 1 * (j 1).val = (j 1).val
    rw [e61]; omega
  · intro p k P hP
    show V c main_v24 (((cfg0.win 0).blk t).view.emb (ix2 p k)) = V c main_v24 (ix2 P k)
    refine congrArg (V c main_v24) (funext fun a => Fin.ext ?_)
    match a with
    | ⟨0, _⟩ => show win0_0.index t (0 : Fin 2) * 5000 + 1 * p.val = P.val; rw [e00]; omega
    | ⟨1, _⟩ => show win0_0.index t (1 : Fin 2) * 64 + 1 * k.val = k.val; rw [e01]; omega
  · intro p k P hP
    show V c main_v13 (((cfg0.win 1).blk t).view.emb (ix2 p k)) = V c main_v13 (ix2 P k)
    refine congrArg (V c main_v13) (funext fun a => Fin.ext ?_)
    match a with
    | ⟨0, _⟩ => show win0_1.index t (0 : Fin 2) * 5000 + 1 * p.val = P.val; rw [e10]; omega
    | ⟨1, _⟩ => show win0_1.index t (1 : Fin 2) * 64 + 1 * k.val = k.val; rw [e11]; omega
  · intro p P hP
    show V c main_v12 (((cfg0.win 2).blk t).view.emb (ix2 p (0 : Fin 1))) = V c main_v12 (ix2 P (0 : Fin 1))
    refine congrArg (V c main_v12) (funext fun a => Fin.ext ?_)
    match a with
    | ⟨0, _⟩ => show win0_2.index t (0 : Fin 2) * 5000 + 1 * p.val = P.val; rw [e20]; omega
    | ⟨1, _⟩ => show win0_2.index t (1 : Fin 2) * 1 + 1 * 0 = 0; rw [e21]
  · funext y
    show V c main_arg3 (((cfg0.win 3).blk t).view.emb y) = V c main_arg3 y
    refine congrArg (V c main_arg3) (funext fun a => Fin.ext ?_)
    match a with
    | ⟨0, _⟩ => show win0_3.index t (0 : Fin 2) * 64 + 1 * (y 0).val = (y 0).val; rw [e30]; omega
    | ⟨1, _⟩ => show win0_3.index t (1 : Fin 2) * 128 + 1 * (y 1).val = (y 1).val; rw [e31]; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 64 + 1 * (y 0).val = (y 0).val; rw [e40]; omega
    | ⟨1, _⟩ => show win0_4.index t (1 : Fin 2) * 128 + 1 * (y 1).val = (y 1).val; rw [e41]; omega
  · funext y
    show V c main_v25 (((cfg0.win 5).blk t).view.emb y) = V c main_v25 y
    refine congrArg (V c main_v25) (funext fun a => Fin.ext ?_)
    match a with
    | ⟨0, _⟩ => show win0_5.index t (0 : Fin 2) * 1 + 1 * (y 0).val = (y 0).val; rw [e50]; omega
    | ⟨1, _⟩ => show win0_5.index t (1 : Fin 2) * 128 + 1 * (y 1).val = (y 1).val; rw [e51]; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Every row of the output is in the block of the point its row number divided by the block height names. -/
theorem cover (i : S100000x128.Idx) :
    ∃ t : Fin cfg0.N, (cfg0.win 6).flush t = true ∧ i ∈ ((cfg0.win 6).blk t).view.set := by
  have h0 : (i 0).val < 100000 := (i 0).isLt
  have h1 : (i 1).val < 128 := (i 1).isLt
  have hN : (i 0).val / 5000 < cfg0.N := by show (i 0).val / 5000 < 20; omega
  refine ⟨⟨(i 0).val / 5000, hN⟩, flush0_6 _, ?_⟩
  rw [mem_blk]
  obtain ⟨-, -, -, -, -, -, -, -, -, -, -, -, e60, e61⟩ := idx_facts ⟨(i 0).val / 5000, hN⟩
  have e60' : win0_6.index ⟨(i 0).val / 5000, hN⟩ (0 : Fin 2) = (i 0).val / 5000 := e60
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e60']; omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    rw [e61]; omega

/-- The output array after the run is the whole-array layer of the arrays the launch finds. -/
theorem final (c : Dev nD) : (dat0 (F := Ideal) V c).arrAt 6 cfg0.N = whole V c :=
  (dat0 (F := Ideal) V c).arrAt_eq_of_cover 6 (whole V c) (fun t _ => flushed_eq V c t) cover

end Cert.KernelIdeal.Region0

end
-- ==== Proof.Region1.lean ====
/-
  The second kernel launch: its output array after the run, as one function of the arrays it finds.

  Point `t` of its twenty grid points takes rows `5000·t … 5000·t + 4999` of the second aggregate, of the hidden rows
  and of the per-node factor, together with every weight matrix and bias row whole, and writes back rows
  `5000·t … 5000·t + 4999` of the one-column result: the second layer and the head of its block.  A row of that depends on
  the same row of the three row-wise operands only, so the block written is that block of ONE whole-array function of the
  arrays as the launch finds them; the twenty blocks tile the result's rows.
-/
import proofs.«178692_j18760417149681_2_alg».proof.Proof.Gen.KernelIdeal.Frame
import proofs.«178692_j18760417149681_2_alg».proof.Proof.Blocks

set_option maxRecDepth 16384

noncomputable section

namespace Cert.KernelIdeal.Region1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Dense Cert.RowScale Cert.BiasRow Cert.SageDense Cert.SageNet

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the grid: the row-wise windows take block `t` of the rows, every weight matrix and bias
    row its whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- The second layer and the head of the arrays as the launch finds them. -/
def whole (c : Dev nD) : S100000x1.Idx → EReal :=
  top (V c main_v37 : S100000x128.Idx → EReal) (V c main_v26 : S100000x128.Idx → EReal)
    (V c main_v12 : S100000x1.Idx → EReal) (V c main_arg6 : S128x128.Idx → EReal) (V c main_arg7 : S128x128.Idx → EReal)
    (V c main_v38 : S1x128.Idx → EReal) (V c main_arg9 : S128x32.Idx → EReal) (V c main_v39 : S1x32.Idx → EReal)
    (V c main_arg11 : S32x1.Idx → EReal) (V c main_v40 : S1x1.Idx → EReal)

/-- The second layer and the head of a block of rows, read at a block index, is that of the whole arrays at the array
    index the block index sits at, when the blocks are those rows of the whole arrays. -/
theorem block_top (A H : Mat 100000 128) (s : Mat 100000 1) (wl wr : Mat 128 128) (b : Mat 1 128) (w1 : Mat 128 32)
    (c1' : Mat 1 32) (w2 : Mat 32 1) (c2 : Mat 1 1)
    (a' h' : Mat 5000 128) (s' : Mat 5000 1) (wl' wr' : Mat 128 128) (b' : Mat 1 128) (w1' : Mat 128 32)
    (c1'' : Mat 1 32) (w2' : Mat 32 1) (c2' : Mat 1 1)
    (j : S5000x1.Idx) (i : S100000x1.Idx) (t : ℕ)
    (hi0 : (i 0).val = t * 5000 + (j 0).val) (hi1 : (i 1).val = (j 1).val)
    (ha : ∀ (p : Fin 5000) (k : Fin 128) (P : Fin 100000), P.val = t * 5000 + p.val → a' (ix2 p k) = A (ix2 P k))
    (hh : ∀ (p : Fin 5000) (k : Fin 128) (P : Fin 100000), P.val = t * 5000 + p.val → h' (ix2 p k) = H (ix2 P k))
    (hs : ∀ (p : Fin 5000) (P : Fin 100000), P.val = t * 5000 + p.val → s' (ix2 p (0 : Fin 1)) = s (ix2 P (0 : Fin 1)))
    (hl : wl' = wl) (hr : wr' = wr) (hb : b' = b) (hw1 : w1' = w1) (hc1 : c1'' = c1') (hw2 : w2' = w2) (hc2 : c2' = c2) :
    top a' h' s' wl' wr' b' w1' c1'' w2' c2' j = top A H s wl wr b w1 c1' w2 c2 i := by
  subst hl hr hb hw1 hc1 hw2 hc2
  obtain ⟨p', q', rfl⟩ : ∃ (p' : Fin 5000) (q' : Fin 1), j = ix2 p' q' := ⟨j 0, j 1, eq_ix2 j⟩
  obtain ⟨p, q, rfl⟩ : ∃ (p : Fin 100000) (q : Fin 1), i = ix2 p q := ⟨i 0, i 1, eq_ix2 i⟩
  have hq : q = q' := Fin.ext hi1
  subst hq
  exact top_rows A H s a' h' s' wl' wr' b' w1' c1'' w2' c2' p' p q (fun k => ha p' k p hi0) (fun k => hh p' k p hi0)
    (hs p' p hi0)

/-- What point `t` writes back is block `t` of the whole-array function. -/
theorem flushed_eq (c : Dev nD) (t : Fin cfg1.N) :
    (dat1 (F := Ideal) V c).flushed 10 t = ((cfg1.win 10).blk t).view.read (Elt Ideal) (whole V c) := by
  show (cfg1.win 10).cut (grid1.coords t) ((dat1 (F := Ideal) V c).after 10 t) = _
  rw [after1_10]
  unfold out1_10
  rw [View.canon_unit_zero off_zero]
  simp only [View.ld_unit_zero (S := S5000x128) off_zero, View.ld_unit_zero (S := S5000x1) off_zero,
    View.ld_unit_zero (S := S128x128) off_zero, View.ld_unit_zero (S := S1x128) off_zero,
    View.ld_unit_zero (S := S128x32) off_zero, View.ld_unit_zero (S := S1x32) off_zero,
    View.ld_unit_zero (S := S32x1) off_zero, View.ld_unit_zero (S := S1x1) off_zero]
  rw [Cert.KernelIdeal.Blocks.top_block]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  show top (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) j
    = whole V c (((cfg1.win 10).blk t).view.emb j)
  unfold whole
  refine block_top (V c main_v37) (V c main_v26) (V c main_v12) (V c main_arg6) (V c main_arg7) (V c main_v38)
    (V c main_arg9) (V c main_v39) (V c main_arg11) (V c main_v40)
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)
    j (((cfg1.win 10).blk t).view.emb j) t.val ?_ ?_ ?_ ?_ ?_ ?_ ?_ ?_ ?_ ?_ ?_ ?_
  · show win1_10.index t (0 : Fin 2) * 5000 + 1 * (j 0).val = t.val * 5000 + (j 0).val
    rw [e10_0]; omega
  · show win1_10.index t (1 : Fin 2) * 1 + 1 * (j 1).val = (j 1).val
    rw [e10_1]; omega
  · intro p k P hP
    show V c main_v37 (((cfg1.win 0).blk t).view.emb (ix2 p k)) = V c main_v37 (ix2 P k)
    refine congrArg (V c main_v37) (funext fun a => Fin.ext ?_)
    match a with
    | ⟨0, _⟩ => show win1_0.index t (0 : Fin 2) * 5000 + 1 * p.val = P.val; rw [e0_0]; omega
    | ⟨1, _⟩ => show win1_0.index t (1 : Fin 2) * 128 + 1 * k.val = k.val; rw [e0_1]; omega
  · intro p k P hP
    show V c main_v26 (((cfg1.win 1).blk t).view.emb (ix2 p k)) = V c main_v26 (ix2 P k)
    refine congrArg (V c main_v26) (funext fun a => Fin.ext ?_)
    match a with
    | ⟨0, _⟩ => show win1_1.index t (0 : Fin 2) * 5000 + 1 * p.val = P.val; rw [e1_0]; omega
    | ⟨1, _⟩ => show win1_1.index t (1 : Fin 2) * 128 + 1 * k.val = k.val; rw [e1_1]; omega
  · intro p P hP
    show V c main_v12 (((cfg1.win 2).blk t).view.emb (ix2 p (0 : Fin 1))) = V c main_v12 (ix2 P (0 : Fin 1))
    refine congrArg (V c main_v12) (funext fun a => Fin.ext ?_)
    match a with
    | ⟨0, _⟩ => show win1_2.index t (0 : Fin 2) * 5000 + 1 * p.val = P.val; rw [e2_0]; omega
    | ⟨1, _⟩ => show win1_2.index t (1 : Fin 2) * 1 + 1 * 0 = 0; rw [e2_1]
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; rw [e3_0]; omega
    | ⟨1, _⟩ => show win1_3.index t (1 : Fin 2) * 128 + 1 * (y 1).val = (y 1).val; rw [e3_1]; omega
  · funext y
    show V c main_arg7 (((cfg1.win 4).blk t).view.emb y) = V c main_arg7 y
    refine congrArg (V c main_arg7) (funext fun a => Fin.ext ?_)
    match a with
    | ⟨0, _⟩ => show win1_4.index t (0 : Fin 2) * 128 + 1 * (y 0).val = (y 0).val; rw [e4_0]; omega
    | ⟨1, _⟩ => show win1_4.index t (1 : Fin 2) * 128 + 1 * (y 1).val = (y 1).val; rw [e4_1]; omega
  · funext y
    show V c main_v38 (((cfg1.win 5).blk t).view.emb y) = V c main_v38 y
    refine congrArg (V c main_v38) (funext fun a => Fin.ext ?_)
    match a with
    | ⟨0, _⟩ => show win1_5.index t (0 : Fin 2) * 1 + 1 * (y 0).val = (y 0).val; rw [e5_0]; omega
    | ⟨1, _⟩ => show win1_5.index t (1 : Fin 2) * 128 + 1 * (y 1).val = (y 1).val; rw [e5_1]; omega
  · funext y
    show V c main_arg9 (((cfg1.win 6).blk t).view.emb y) = V c main_arg9 y
    refine congrArg (V c main_arg9) (funext fun a => Fin.ext ?_)
    match a with
    | ⟨0, _⟩ => show win1_6.index t (0 : Fin 2) * 128 + 1 * (y 0).val = (y 0).val; rw [e6_0]; omega
    | ⟨1, _⟩ => show win1_6.index t (1 : Fin 2) * 32 + 1 * (y 1).val = (y 1).val; rw [e6_1]; omega
  · funext y
    show V c main_v39 (((cfg1.win 7).blk t).view.emb y) = V c main_v39 y
    refine congrArg (V c main_v39) (funext fun a => Fin.ext ?_)
    match a with
    | ⟨0, _⟩ => show win1_7.index t (0 : Fin 2) * 1 + 1 * (y 0).val = (y 0).val; rw [e7_0]; omega
    | ⟨1, _⟩ => show win1_7.index t (1 : Fin 2) * 32 + 1 * (y 1).val = (y 1).val; rw [e7_1]; omega
  · funext y
    show V c main_arg11 (((cfg1.win 8).blk t).view.emb y) = V c main_arg11 y
    refine congrArg (V c main_arg11) (funext fun a => Fin.ext ?_)
    match a with
    | ⟨0, _⟩ => show win1_8.index t (0 : Fin 2) * 32 + 1 * (y 0).val = (y 0).val; rw [e8_0]; omega
    | ⟨1, _⟩ => show win1_8.index t (1 : Fin 2) * 1 + 1 * (y 1).val = (y 1).val; rw [e8_1]; omega
  · funext y
    show V c main_v40 (((cfg1.win 9).blk t).view.emb y) = V c main_v40 y
    refine congrArg (V c main_v40) (funext fun a => Fin.ext ?_)
    match a with
    | ⟨0, _⟩ => show win1_9.index t (0 : Fin 2) * 1 + 1 * (y 0).val = (y 0).val; rw [e9_0]; omega
    | ⟨1, _⟩ => show win1_9.index t (1 : Fin 2) * 1 + 1 * (y 1).val = (y 1).val; rw [e9_1]; omega

/-- An index of the result array is in point `t`'s block iff each coordinate is in the block's range on its axis. -/
theorem mem_blk (t : Fin cfg1.N) (i : S100000x1.Idx) :
    i ∈ ((cfg1.win 10).blk t).view.set ↔ ∀ a : Fin 2, win1_10.index t a * S5000x1.size a ≤ (i a).val
      ∧ (i a).val < win1_10.index t a * S5000x1.size a + S5000x1.size a := by
  show i ∈ ((View.whole main_v41).slice (win1_10.rect t)).set ↔ _
  rw [View.set_slice_whole, Rect.mem_set_unit]
  exact Iff.rfl

/-- Every row of the result is in the block of the point its row number divided by the block height names. -/
theorem cover (i : S100000x1.Idx) :
    ∃ t : Fin cfg1.N, (cfg1.win 10).flush t = true ∧ i ∈ ((cfg1.win 10).blk t).view.set := by
  have h0 : (i 0).val < 100000 := (i 0).isLt
  have h1 : (i 1).val < 1 := (i 1).isLt
  have hN : (i 0).val / 5000 < cfg1.N := by show (i 0).val / 5000 < 20; omega
  refine ⟨⟨(i 0).val / 5000, hN⟩, flush1_10 _, ?_⟩
  rw [mem_blk]
  obtain ⟨-, -, -, -, -, -, -, -, -, -, -, -, -, -, -, -, -, -, -, -, e10_0, e10_1⟩ := idx_facts ⟨(i 0).val / 5000, hN⟩
  have e10_0' : win1_10.index ⟨(i 0).val / 5000, hN⟩ (0 : Fin 2) = (i 0).val / 5000 := e10_0
  intro a
  match a with
  | ⟨0, _⟩ =>
    show win1_10.index ⟨(i 0).val / 5000, hN⟩ (0 : Fin 2) * 5000 ≤ (i 0).val
      ∧ (i 0).val < win1_10.index ⟨(i 0).val / 5000, hN⟩ (0 : Fin 2) * 5000 + 5000
    rw [e10_0']; omega
  | ⟨1, _⟩ =>
    show win1_10.index ⟨(i 0).val / 5000, hN⟩ (1 : Fin 2) * 1 ≤ (i 1).val
      ∧ (i 1).val < win1_10.index ⟨(i 0).val / 5000, hN⟩ (1 : Fin 2) * 1 + 1
    rw [e10_1]; omega

/-- The result array after the run is the whole-array function of the arrays the launch finds. -/
theorem final (c : Dev nD) : (dat1 (F := Ideal) V c).arrAt 10 cfg1.N = whole V c :=
  (dat1 (F := Ideal) V c).arrAt_eq_of_cover 10 (whole V c) (fun t _ => flushed_eq V c t) cover

end Cert.KernelIdeal.Region1

end
-- ==== Proof.HostVal.lean ====
/-
  What the two kernel launches find in the arrays they read, as functions of the program's arguments.

  Before the first launch the host program cuts the edge array into its row of sources and its row of destinations,
  counts the edges arriving at each node (a segment sum of ones) and forms the column of reciprocals of that count clamped
  below by one; it gathers the rows of the features at the edges' sources (a negative source wrapped round once, then
  clamped into range) and sums them by destination.  Between the launches it gathers and sums the first launch's output
  rows in the same way.  The weight matrices are passed as they are and each bias vector is laid out as one row.  A change
  of float format is the identity on the extended reals, so the features stored narrow and widened after the gather are
  the features.
-/
import proofs.«178692_j18760417149681_2_alg».proof.Proof.Gen.KernelIdeal.Frame
import proofs.«178692_j18760417149681_2_alg».proof.Proof.LibSageNet
import Idealize.ShloMosaic.Lib.ValueIdx
import Idealize.ShloMosaic.PureOps.Ideal.Laws

set_option maxRecDepth 16384

noncomputable section

namespace Cert.KernelIdeal.HostVal

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

/-- The edges' destinations as a column of scatter indices. -/
def dstCol (e : IVec S2x1600000 32) : IVec S1600000x1 32 :=
  broadcastInDim S1600000x1 ![0] bcast_S1600000_S1600000x1_0
    (shapeCast S1600000 (extractStridedSlice S1x1600000 ![1, 0] e slices_S2x1600000_S1x1600000_1_0)
      shapeCasts_S1x1600000_S1600000)

/-- The edges' sources. -/
def srcVec (e : IVec S2x1600000 32) : IVec S1600000 32 :=
  shapeCast S1600000 (extractStridedSlice S1x1600000 ![0, 0] e slices_S2x1600000_S1x1600000_0_0)
    shapeCasts_S1x1600000_S1600000

/-- The edges' sources, a negative one wrapped round once, as a column of gather indices. -/
def srcCol (e : IVec S2x1600000 32) : IVec S1600000x1 32 :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- The rows at the edges' sources summed by destination, for rows of 64 entries. -/
def agg64 (e : IVec S2x1600000 32) (X : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstCol e)
    (Host.gather gather_S100000x64_S1600000x1_S1600000x64_1_0_n_n_0_1_164 X (srcCol e))

/-- The same for rows of 128 entries. -/
def agg128 (e : IVec S2x1600000 32) (X : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 X (srcCol e))

/-- The column of reciprocals of the in-degrees clamped below by one. -/
def factor (e : IVec S2x1600000 32) : FVec Ideal S100000x1 .f32 :=
  shapeCast S100000x1
    (Host.divf (F := Ideal) (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32)) (dstCol e)
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- The network's result as a function of the program's arguments: the two layers and the head over the gather and
    segment sum of the edge array, each bias vector laid out as one row. -/
def out (x0 : FVec Ideal S100000x64 .f32) (x1 : IVec S2x1600000 32) (x3 x4 : FVec Ideal S64x128 .f32)
    (x5 : FVec Ideal S128 .f32) (x6 x7 : FVec Ideal S128x128 .f32) (x8 : FVec Ideal S128 .f32)
    (x9 : FVec Ideal S128x32 .f32) (x10 : FVec Ideal S32 .f32) (x11 : FVec Ideal S32x1 .f32)
    (x12 : FVec Ideal S1 .f32) : FVec Ideal S100000x1 .f32 :=
  Cert.SageNet.net (agg64 x1) (agg128 x1) (factor x1) x0 x3 x4 (Cert.Dense.row x5) x6 x7 (Cert.Dense.row x8) x9
    (Cert.Dense.row x10) x11 (Cert.Dense.row x12)

variable (m : (ℓ : Loc nD τ sig) → Buf (Elt Ideal) ℓ) (ρ : Dev nD → PrngReg)

/-! ## What the first launch finds -/

theorem V1_v24 (c : Dev nD) : (V1 (F := Ideal) m ρ c main_v24 : S100000x64.Idx → EReal)
    = agg64 (m ((c : Thread nD τ).loc main_arg1)) (m ((c : Thread nD τ).loc main_arg0)) := by
  show StableHlo.after hostOps0 (W0 m ρ c) (Proc.devRef .tc main_v24) = _
  after_results_simp <;> rfl

theorem V1_v13 (c : Dev nD) : (V1 (F := Ideal) m ρ c main_v13 : S100000x64.Idx → EReal) = (m ((c : Thread nD τ).loc main_arg0)) := by
  show StableHlo.after hostOps0 (W0 m ρ c) (Proc.devRef .tc main_v13) = _
  after_results_simp <;> rfl

theorem V1_v12 (c : Dev nD) : (V1 (F := Ideal) m ρ c main_v12 : S100000x1.Idx → EReal) = factor (m ((c : Thread nD τ).loc main_arg1)) := by
  show StableHlo.after hostOps0 (W0 m ρ c) (Proc.devRef .tc main_v12) = _
  after_results_simp <;> rfl

theorem V1_arg3 (c : Dev nD) : (V1 (F := Ideal) m ρ c main_arg3 : S64x128.Idx → EReal) = (m ((c : Thread nD τ).loc main_arg3)) := by
  show StableHlo.after hostOps0 (W0 m ρ c) (Proc.devRef .tc main_arg3) = _
  after_results_simp <;> rfl

theorem V1_arg4 (c : Dev nD) : (V1 (F := Ideal) m ρ c main_arg4 : S64x128.Idx → EReal) = (m ((c : Thread nD τ).loc main_arg4)) := by
  show StableHlo.after hostOps0 (W0 m ρ c) (Proc.devRef .tc main_arg4) = _
  after_results_simp <;> rfl

theorem V1_v25 (c : Dev nD) : (V1 (F := Ideal) m ρ c main_v25 : S1x128.Idx → EReal)
    = shapeCast S1x128 (m ((c : Thread nD τ).loc main_arg5)) shapeCasts_S128_S1x128 := by
  show StableHlo.after hostOps0 (W0 m ρ c) (Proc.devRef .tc main_v25) = _
  after_results_simp <;> rfl

/-! ## What the host reads after the first launch of buffers written before it -/

theorem W1_v1 (c : Dev nD) : (W1 (F := Ideal) m ρ c (Proc.devRef .tc main_v1) : S1600000.Idx → BitVec 32)
    = srcVec (m ((c : Thread nD τ).loc main_arg1)) := by
  show StableHlo.after hostOps0 (W0 m ρ c) (Proc.devRef .tc main_v1) = _
  after_results_simp <;> rfl

theorem W1_v3 (c : Dev nD) : (W1 (F := Ideal) m ρ c (Proc.devRef .tc main_v3) : S1600000.Idx → BitVec 32)
    = shapeCast S1600000 (extractStridedSlice S1x1600000 ![1, 0] (m ((c : Thread nD τ).loc main_arg1)) slices_S2x1600000_S1x1600000_1_0)
      shapeCasts_S1x1600000_S1600000 := by
  show StableHlo.after hostOps0 (W0 m ρ c) (Proc.devRef .tc main_v3) = _
  after_results_simp <;> rfl

/-- A buffer the first stretch does not write and the first launch does not touch holds its launch contents. -/
theorem W2_arg (c : Dev nD) (b : Ref sig .tc) (hb : ∀ w, Pipeline.arrRef spec0 w ≠ b)
    (h0 : StableHlo.after hostOps0 (W0 (F := Ideal) m ρ c) (Proc.devRef .tc b) = W0 m ρ c (Proc.devRef .tc b)) :
    W2 (F := Ideal) m ρ c (Proc.devRef .tc b) = m ((c : Thread nD τ).loc b) :=
  (W2_of_ne m ρ c b hb).trans h0

/-- The per-node factor is an input of the first launch: it leaves it as it found it. -/
theorem W2_v12 (c : Dev nD) : (W2 (F := Ideal) m ρ c (Proc.devRef .tc main_v12) : S100000x1.Idx → EReal)
    = factor (m ((c : Thread nD τ).loc main_arg1)) :=
  ((W2_arr m ρ c 2).trans (((dat0 (F := Ideal) (V1 m ρ) c).arrAt_in 2 rfl cfg0.N).trans (A_eq0 (V1 m ρ) c 2))).trans
    (V1_v12 m ρ c)

/-! ## What the second launch finds -/

theorem V3_v37 (c : Dev nD) : (V3 (F := Ideal) m ρ c main_v37 : S100000x128.Idx → EReal)
    = agg128 (m ((c : Thread nD τ).loc main_arg1)) (W2 m ρ c (Proc.devRef .tc main_v26)) := by
  show StableHlo.after hostOps1 (W2 m ρ c) (Proc.devRef .tc main_v37) = _
  after_results_simp
  rw [W2_of_ne m ρ c main_v1 (by decide), W2_of_ne m ρ c main_v3 (by decide), W1_v1 m ρ c, W1_v3 m ρ c]
  rfl

theorem V3_v26 (c : Dev nD) : (V3 (F := Ideal) m ρ c main_v26 : S100000x128.Idx → EReal)
    = W2 m ρ c (Proc.devRef .tc main_v26) := by
  show StableHlo.after hostOps1 (W2 m ρ c) (Proc.devRef .tc main_v26) = _
  after_results_simp

theorem V3_v12 (c : Dev nD) : (V3 (F := Ideal) m ρ c main_v12 : S100000x1.Idx → EReal) = factor (m ((c : Thread nD τ).loc main_arg1)) := by
  show StableHlo.after hostOps1 (W2 m ρ c) (Proc.devRef .tc main_v12) = _
  after_results_simp
  exact W2_v12 m ρ c

/-! ## The arguments the second launch reads, walked back to the launch contents -/

theorem W2_arg6 (c : Dev nD) : (W2 (F := Ideal) m ρ c (Proc.devRef .tc main_arg6) : S128x128.Idx → EReal)
    = (m ((c : Thread nD τ).loc main_arg6)) := by
  refine (W2_of_ne m ρ c main_arg6 (by decide)).trans ?_
  show StableHlo.after hostOps0 (W0 m ρ c) (Proc.devRef .tc main_arg6) = _
  after_results_simp <;> rfl

theorem W2_arg7 (c : Dev nD) : (W2 (F := Ideal) m ρ c (Proc.devRef .tc main_arg7) : S128x128.Idx → EReal)
    = (m ((c : Thread nD τ).loc main_arg7)) := by
  refine (W2_of_ne m ρ c main_arg7 (by decide)).trans ?_
  show StableHlo.after hostOps0 (W0 m ρ c) (Proc.devRef .tc main_arg7) = _
  after_results_simp <;> rfl

theorem W2_arg8 (c : Dev nD) : (W2 (F := Ideal) m ρ c (Proc.devRef .tc main_arg8) : S128.Idx → EReal)
    = (m ((c : Thread nD τ).loc main_arg8)) := by
  refine (W2_of_ne m ρ c main_arg8 (by decide)).trans ?_
  show StableHlo.after hostOps0 (W0 m ρ c) (Proc.devRef .tc main_arg8) = _
  after_results_simp <;> rfl

theorem W2_arg9 (c : Dev nD) : (W2 (F := Ideal) m ρ c (Proc.devRef .tc main_arg9) : S128x32.Idx → EReal)
    = (m ((c : Thread nD τ).loc main_arg9)) := by
  refine (W2_of_ne m ρ c main_arg9 (by decide)).trans ?_
  show StableHlo.after hostOps0 (W0 m ρ c) (Proc.devRef .tc main_arg9) = _
  after_results_simp <;> rfl

theorem W2_arg10 (c : Dev nD) : (W2 (F := Ideal) m ρ c (Proc.devRef .tc main_arg10) : S32.Idx → EReal)
    = (m ((c : Thread nD τ).loc main_arg10)) := by
  refine (W2_of_ne m ρ c main_arg10 (by decide)).trans ?_
  show StableHlo.after hostOps0 (W0 m ρ c) (Proc.devRef .tc main_arg10) = _
  after_results_simp <;> rfl

theorem W2_arg11 (c : Dev nD) : (W2 (F := Ideal) m ρ c (Proc.devRef .tc main_arg11) : S32x1.Idx → EReal)
    = (m ((c : Thread nD τ).loc main_arg11)) := by
  refine (W2_of_ne m ρ c main_arg11 (by decide)).trans ?_
  show StableHlo.after hostOps0 (W0 m ρ c) (Proc.devRef .tc main_arg11) = _
  after_results_simp <;> rfl

theorem W2_arg12 (c : Dev nD) : (W2 (F := Ideal) m ρ c (Proc.devRef .tc main_arg12) : S1.Idx → EReal)
    = (m ((c : Thread nD τ).loc main_arg12)) := by
  refine (W2_of_ne m ρ c main_arg12 (by decide)).trans ?_
  show StableHlo.after hostOps0 (W0 m ρ c) (Proc.devRef .tc main_arg12) = _
  after_results_simp <;> rfl

theorem V3_arg6 (c : Dev nD) : (V3 (F := Ideal) m ρ c main_arg6 : S128x128.Idx → EReal) = (m ((c : Thread nD τ).loc main_arg6)) := by
  show StableHlo.after hostOps1 (W2 m ρ c) (Proc.devRef .tc main_arg6) = _
  after_results_simp
  exact W2_arg6 m ρ c

theorem V3_arg7 (c : Dev nD) : (V3 (F := Ideal) m ρ c main_arg7 : S128x128.Idx → EReal) = (m ((c : Thread nD τ).loc main_arg7)) := by
  show StableHlo.after hostOps1 (W2 m ρ c) (Proc.devRef .tc main_arg7) = _
  after_results_simp
  exact W2_arg7 m ρ c

theorem V3_arg9 (c : Dev nD) : (V3 (F := Ideal) m ρ c main_arg9 : S128x32.Idx → EReal) = (m ((c : Thread nD τ).loc main_arg9)) := by
  show StableHlo.after hostOps1 (W2 m ρ c) (Proc.devRef .tc main_arg9) = _
  after_results_simp
  exact W2_arg9 m ρ c

theorem V3_arg11 (c : Dev nD) : (V3 (F := Ideal) m ρ c main_arg11 : S32x1.Idx → EReal) = (m ((c : Thread nD τ).loc main_arg11)) := by
  show StableHlo.after hostOps1 (W2 m ρ c) (Proc.devRef .tc main_arg11) = _
  after_results_simp
  exact W2_arg11 m ρ c

theorem V3_v38 (c : Dev nD) : (V3 (F := Ideal) m ρ c main_v38 : S1x128.Idx → EReal)
    = shapeCast S1x128 (m ((c : Thread nD τ).loc main_arg8)) shapeCasts_S128_S1x128 := by
  show StableHlo.after hostOps1 (W2 m ρ c) (Proc.devRef .tc main_v38) = _
  after_results_simp
  rw [W2_arg8 m ρ c]
  rfl

theorem V3_v39 (c : Dev nD) : (V3 (F := Ideal) m ρ c main_v39 : S1x32.Idx → EReal)
    = shapeCast S1x32 (m ((c : Thread nD τ).loc main_arg10)) shapeCasts_S32_S1x32 := by
  show StableHlo.after hostOps1 (W2 m ρ c) (Proc.devRef .tc main_v39) = _
  after_results_simp
  rw [W2_arg10 m ρ c]
  rfl

theorem V3_v40 (c : Dev nD) : (V3 (F := Ideal) m ρ c main_v40 : S1x1.Idx → EReal)
    = shapeCast S1x1 (m ((c : Thread nD τ).loc main_arg12)) shapeCasts_S1_S1x1 := by
  show StableHlo.after hostOps1 (W2 m ρ c) (Proc.devRef .tc main_v40) = _
  after_results_simp
  rw [W2_arg12 m ρ c]
  rfl

end Cert.KernelIdeal.HostVal

end
-- ==== Proof.KernelValue.lean ====
/-
  The idealized kernel's result as one function of its arguments.

  After its run the result buffer holds the second launch's output array, which is the second layer and the head of what
  that launch finds; it finds the segment sum of the first launch's output rows, those rows themselves, the per-node factor
  and the weights and biases as passed.  The first launch's output is one layer of what IT finds: the segment sum of the
  features' rows, the features, the same factor, and its weights and bias.  Substituting one into the other gives the
  network over the gather and segment sum of the edge array.
-/
import proofs.«178692_j18760417149681_2_alg».proof.Proof.KernelRun
import proofs.«178692_j18760417149681_2_alg».proof.Proof.Region0
import proofs.«178692_j18760417149681_2_alg».proof.Proof.Region1
import proofs.«178692_j18760417149681_2_alg».proof.Proof.HostVal

set_option maxRecDepth 16384

noncomputable section

namespace Cert.KernelIdeal.Whole

open Cert.KernelIdeal Cert.KernelIdeal.Gen Cert.KernelIdeal.HostVal
open Idealize.ShloMosaic Idealize.ShloMosaic.TcCoe Idealize.ShloMosaic.ValueIdx
open Idealize.SL Idealize.SL.Sem
open Cert.Dense Cert.RowScale Cert.BiasRow Cert.SageDense Cert.SageNet

variable (m : (ℓ : Loc nD τ sig) → Buf (Elt Ideal) ℓ) (ρ : Dev nD → PrngReg)

/-- After the first launch its output array is the first layer of the arguments. -/
theorem hidden (c : Dev nD) : (W2 (F := Ideal) m ρ c (Proc.devRef .tc main_v26) : S100000x128.Idx → EReal)
    = layer (agg64 (m ((c : Thread nD τ).loc main_arg1)) (m ((c : Thread nD τ).loc main_arg0))) (m ((c : Thread nD τ).loc main_arg0)) (factor (m ((c : Thread nD τ).loc main_arg1))) (m ((c : Thread nD τ).loc main_arg3)) (m ((c : Thread nD τ).loc main_arg4)) (row (m ((c : Thread nD τ).loc main_arg5))) := by
  refine (W2_arr m ρ c 6).trans ?_
  rw [Region0.final (V1 m ρ) c]
  unfold Region0.whole
  rw [V1_v24 m ρ c, V1_v13 m ρ c, V1_v12 m ρ c, V1_arg3 m ρ c, V1_arg4 m ρ c, V1_v25 m ρ c, Cert.Dense.shapeCast_row]

/-- After the run the result buffer holds the network of the arguments. -/
theorem result (c : Dev nD) : (W4 (F := Ideal) m ρ c (Proc.devRef .tc main_v41) : S100000x1.Idx → EReal)
    = out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 10).trans ?_
  rw [Region1.final (V3 m ρ) c]
  unfold Region1.whole
  rw [V3_v37 m ρ c, V3_v26 m ρ c, V3_v12 m ρ c, V3_arg6 m ρ c, V3_arg7 m ρ c, V3_v38 m ρ c, V3_arg9 m ρ c,
    V3_v39 m ρ c, V3_arg11 m ρ c, V3_v40 m ρ c, hidden m ρ c]
  rw [Cert.Dense.shapeCast_row, Cert.Dense.shapeCast_row, Cert.Dense.shapeCast_row]
  unfold out Cert.SageNet.net
  rfl

/-- Every weakly fair execution of the idealized kernel ends with the result at the network of the arguments and the
    arguments as launched. -/
theorem run : θ_run defs (onTc (τ := τ) (main (F := Ideal))) ⟨m, fun _ => 0, ρ⟩ (fun r => ∀ c : Dev nD,
      r.2.mem ((c.tc : Thread nD τ).loc main_v41) = out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c), (h c).2⟩) (Cert.KernelIdeal.Named.run_named m ρ)

end Cert.KernelIdeal.Whole

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«178692_j18760417149681_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibMeanForms.lean ====
/-
  The mean over a node's in-neighbours in its two spellings, on the extended reals, at any extents.

  The in-degree of node `p` is a segment sum of ones over the edges whose destination, read signed, is `p`: zero plus a
  one per such edge.  One program counts it into a vector `[N]`, forms the reciprocal of the count clamped below by one,
  lays it out as a column and multiplies the rows of the summed neighbour rows by it.  The other counts into a column
  `[N, 1]`, clamps it below by one, broadcasts it along the rows and divides the summed neighbour rows by it.  The two
  counts are the same sum over the same edges.  A count clamped below by one is not zero, and off zero a quotient is the
  product with the reciprocal, whatever the dividend, infinite or not: the two means are one array.
-/
import proofs.«178692_j18760417149681_2_alg».proof.Proof.LibSageDense
import proofs.«178692_j18760417149681_2_alg».proof.Proof.LibSegmentSum
import proofs.«178692_j18760417149681_2_alg».proof.Proof.LibHostLayout

noncomputable section

open scoped BigOperators

namespace Cert.MeanForms

open Idealize.ShloMosaic Idealize.ShloMosaic.ValueIdx Cert.Dense Cert.RowScale

/-- A scalar zero broadcast to any shape is zero at every entry. -/
theorem bcastZero {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0)]
  show Ideal.ofBits .f32 0x00000000#32 = 0
  exact Ideal.ofBits_zero_f32

/-- Dividing by a column clamped below by one, broadcast along the rows, is scaling the rows by the column of
    reciprocals of the same quantities held in a vector and clamped the same way. -/
theorem div_eq_scale {N C : ℕ} (G : FVec Ideal ⟨2, ![N, C]⟩ .f32) (dR oneR : FVec Ideal ⟨2, ![N, 1]⟩ .f32)
    (dV oneV : FVec Ideal ⟨1, ![N]⟩ .f32)
    (hb : (⟨2, ![N, 1]⟩ : Shape).BroadcastsInDim ⟨2, ![N, C]⟩ ![0, 1])
    (hc : (⟨1, ![N]⟩ : Shape).ShapeCasts ⟨2, ![N, 1]⟩)
    (h1 : ∀ i, oneR i = 1) (h2 : ∀ i, oneV i = 1) (hd : ∀ p : Fin N, dR (ix2 p (0 : Fin 1)) = dV (ix1 p)) :
    Host.divf (F := Ideal) G (broadcastInDim ⟨2, ![N, C]⟩ ![0, 1] hb (maximumf (F := Ideal) dR oneR))
      = scaleRows G (shapeCast ⟨2, ![N, 1]⟩ (Host.divf (F := Ideal) oneV (maximumf (F := Ideal) dV oneV)) hc) := by
  funext i
  obtain ⟨p, q, rfl⟩ : ∃ (p : Fin N) (q : Fin C), i = ix2 p q := ⟨i 0, i 1, eq_ix2 i⟩
  rw [scaleRows_apply, Cert.RowBlocks.shapeCast_col_apply]
  show Ideal.div (G (ix2 p q)) (broadcastInDim ⟨2, ![N, C]⟩ ![0, 1] hb (maximumf (F := Ideal) dR oneR) (ix2 p q))
    = G (ix2 p q) * Ideal.div (oneV (ix1 p)) (max (dV (ix1 p)) (oneV (ix1 p)))
  rw [Cert.HostLayout.bcast_col_mat]
  show Ideal.div (G (ix2 p q)) (max (dR (ix2 p (0 : Fin 1))) (oneR (ix2 p (0 : Fin 1)))) = _
  rw [h1, h2, hd]
  exact (Cert.Sage.mul_recip _ _ (Cert.Sage.max_one_ne_zero _)).symm

/-- The count of the edges arriving at a node, taken into a column and into a vector, is one number. -/
theorem count_eq {N E : ℕ}
    (dR : ScatterDims ⟨2, ![N, 1]⟩ ⟨2, ![E, 1]⟩ ⟨2, ![E, 1]⟩)
    (r1 : dR.updateWindowDims = [1]) (r2 : dR.insertedWindowDims = [0]) (r3 : dR.scatterDimsToOperandDims = [0])
    (r4 : dR.indexVectorDim = 1)
    (dV : ScatterDims ⟨1, ![N]⟩ ⟨2, ![E, 1]⟩ ⟨1, ![E]⟩)
    (v1 : dV.updateWindowDims = []) (v2 : dV.insertedWindowDims = [0]) (v3 : dV.scatterDimsToOperandDims = [0])
    (v4 : dV.indexVectorDim = 1)
    (idx : IVec ⟨2, ![E, 1]⟩ 32)
    (hN1 : (⟨0, ![]⟩ : Shape).BroadcastsInDim ⟨2, ![N, 1]⟩ ![])
    (hE1 : (⟨0, ![]⟩ : Shape).BroadcastsInDim ⟨2, ![E, 1]⟩ ![])
    (hN : (⟨0, ![]⟩ : Shape).BroadcastsInDim ⟨1, ![N]⟩ ![])
    (hE : (⟨0, ![]⟩ : Shape).BroadcastsInDim ⟨1, ![E]⟩ ![]) (p : Fin N) :
    Host.scatterAdd (F := Ideal) dR
        (broadcastInDim ⟨2, ![N, 1]⟩ ![] hN1 (constant (F := Ideal) ⟨0, ![]⟩ .f32 0x00000000#32)) idx
        (broadcastInDim ⟨2, ![E, 1]⟩ ![] hE1 (constant (F := Ideal) ⟨0, ![]⟩ .f32 0x3F800000#32)) (ix2 p (0 : Fin 1))
      = Host.scatterAdd (F := Ideal) dV
        (broadcastInDim ⟨1, ![N]⟩ ![] hN (constant (F := Ideal) ⟨0, ![]⟩ .f32 0x00000000#32)) idx
        (broadcastInDim ⟨1, ![E]⟩ ![] hE (constant (F := Ideal) ⟨0, ![]⟩ .f32 0x3F800000#32)) (ix1 p) := by
  rw [Cert.SegmentSum.segSumRows_apply dR r1 r2 r3 r4, Cert.SegmentSum.segSumVec_apply dV v1 v2 v3 v4,
    bcastZero hN1, bcastZero hN]
  refine congrArg (fun t : EReal => 0 + t) (Finset.sum_congr rfl fun e _ => ?_)
  rw [Cert.SageDense.bcastOne hE1, Cert.SageDense.bcastOne hE]

/-- Dividing the summed rows by the clamped count broadcast along the rows is scaling them by the column of
    reciprocals of the clamped count, the count taken as a column on one side and as a vector on the other. -/
theorem divMean_eq_scaleRows {N E C : ℕ}
    (dR : ScatterDims ⟨2, ![N, 1]⟩ ⟨2, ![E, 1]⟩ ⟨2, ![E, 1]⟩)
    (r1 : dR.updateWindowDims = [1]) (r2 : dR.insertedWindowDims = [0]) (r3 : dR.scatterDimsToOperandDims = [0])
    (r4 : dR.indexVectorDim = 1)
    (dV : ScatterDims ⟨1, ![N]⟩ ⟨2, ![E, 1]⟩ ⟨1, ![E]⟩)
    (v1 : dV.updateWindowDims = []) (v2 : dV.insertedWindowDims = [0]) (v3 : dV.scatterDimsToOperandDims = [0])
    (v4 : dV.indexVectorDim = 1)
    (idx : IVec ⟨2, ![E, 1]⟩ 32) (G : FVec Ideal ⟨2, ![N, C]⟩ .f32)
    (hN1 : (⟨0, ![]⟩ : Shape).BroadcastsInDim ⟨2, ![N, 1]⟩ ![])
    (hE1 : (⟨0, ![]⟩ : Shape).BroadcastsInDim ⟨2, ![E, 1]⟩ ![])
    (hN : (⟨0, ![]⟩ : Shape).BroadcastsInDim ⟨1, ![N]⟩ ![])
    (hE : (⟨0, ![]⟩ : Shape).BroadcastsInDim ⟨1, ![E]⟩ ![])
    (hb : (⟨2, ![N, 1]⟩ : Shape).BroadcastsInDim ⟨2, ![N, C]⟩ ![0, 1])
    (hc : (⟨1, ![N]⟩ : Shape).ShapeCasts ⟨2, ![N, 1]⟩) :
    Host.divf (F := Ideal) G (broadcastInDim ⟨2, ![N, C]⟩ ![0, 1] hb
        (maximumf (F := Ideal)
          (Host.scatterAdd (F := Ideal) dR
            (broadcastInDim ⟨2, ![N, 1]⟩ ![] hN1 (constant (F := Ideal) ⟨0, ![]⟩ .f32 0x00000000#32)) idx
            (broadcastInDim ⟨2, ![E, 1]⟩ ![] hE1 (constant (F := Ideal) ⟨0, ![]⟩ .f32 0x3F800000#32)))
          (broadcastInDim ⟨2, ![N, 1]⟩ ![] hN1 (constant (F := Ideal) ⟨0, ![]⟩ .f32 0x3F800000#32))))
      = scaleRows G (shapeCast ⟨2, ![N, 1]⟩
          (Host.divf (F := Ideal) (broadcastInDim ⟨1, ![N]⟩ ![] hN (constant (F := Ideal) ⟨0, ![]⟩ .f32 0x3F800000#32))
            (maximumf (F := Ideal)
              (Host.scatterAdd (F := Ideal) dV
                (broadcastInDim ⟨1, ![N]⟩ ![] hN (constant (F := Ideal) ⟨0, ![]⟩ .f32 0x00000000#32)) idx
                (broadcastInDim ⟨1, ![E]⟩ ![] hE (constant (F := Ideal) ⟨0, ![]⟩ .f32 0x3F800000#32)))
              (broadcastInDim ⟨1, ![N]⟩ ![] hN (constant (F := Ideal) ⟨0, ![]⟩ .f32 0x3F800000#32)))) hc) :=
  div_eq_scale G _ _ _ _ hb hc (fun i => Cert.SageDense.bcastOne hN1 i) (fun i => Cert.SageDense.bcastOne hN i)
    (fun p => count_eq dR r1 r2 r3 r4 dV v1 v2 v3 v4 idx hN1 hE1 hN hE p)

end Cert.MeanForms

end
-- ==== Proof.RefValue.lean ====
/-
  The idealized reference's result is the same function of the arguments as the kernel's.

  Stage by stage.  The reference gathers the features' rows at the edges' sources and sums them by destination exactly as
  the kernel's host code does.  It divides that sum by the in-degree column clamped below by one and broadcast along the
  rows; that is the sum's rows scaled by the column of reciprocals of the clamped in-degree vector.  It adds the bias
  row between its two matrix products where the kernel adds it after both; addition of extended reals is commutative and
  associative, so the layer is the same.  The second aggregation, the second mean and the second layer repeat this on the
  first layer's rows, and the two affine maps of the head are the same on both sides.
-/
import proofs.«178692_j18760417149681_2_alg».proof.Proof.Gen.ReferenceIdeal.Run
import proofs.«178692_j18760417149681_2_alg».proof.Proof.Gen.ReferenceIdeal.Read
import proofs.«178692_j18760417149681_2_alg».proof.Proof.HostVal
import proofs.«178692_j18760417149681_2_alg».proof.Proof.LibMeanForms

set_option maxRecDepth 16384

noncomputable section

namespace Cert.ReferenceIdeal.RefValue

open Cert.ReferenceIdeal Cert.ReferenceIdeal.Read
open Idealize.ShloMosaic Idealize.ShloMosaic.ValueIdx
open Cert.Dense Cert.RowScale Cert.BiasRow Cert.SageDense Cert.SageNet

variable (x0 : (⟨S100000x64, .f32⟩ : BufTy).Contents (Elt Ideal)) (x1 : (⟨S2x1600000, .i32⟩ : BufTy).Contents (Elt Ideal))
  (x3 x4 : (⟨S64x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 : (⟨S128x32, .f32⟩ : BufTy).Contents (Elt Ideal)) (x10 : (⟨S32, .f32⟩ : BufTy).Contents (Elt Ideal))
  (x11 : (⟨S32x1, .f32⟩ : BufTy).Contents (Elt Ideal)) (x12 : (⟨S1, .f32⟩ : BufTy).Contents (Elt Ideal))

/-- The first aggregate is the kernel's. -/
theorem agg1_eq : val_main_v13 (F := Ideal) x0 x1 = Cert.KernelIdeal.HostVal.agg64 x1 x0 := rfl

/-- The first mean is the first aggregate's rows scaled by the kernel's per-node factor. -/
theorem mean1_eq : val_main_v21 (F := Ideal) x0 x1
    = scaleRows (Cert.KernelIdeal.HostVal.agg64 x1 x0) (Cert.KernelIdeal.HostVal.factor x1) := by
  unfold val_main_v21 val_main_v20 val_main_v19
  rw [agg1_eq]
  exact Cert.MeanForms.divMean_eq_scaleRows scatter_S100000x1_S1600000x1_S1600000x1_1_0_0_1 rfl rfl rfl rfl
    Cert.KernelIdeal.scatter_S100000_S1600000x1_S1600000_n_0_0_1 rfl rfl rfl rfl
    (Cert.KernelIdeal.HostVal.dstCol x1) (Cert.KernelIdeal.HostVal.agg64 x1 x0) _ _ _ _ _ _

/-- The first layer. -/
theorem layer1_eq : val_main_v27 (F := Ideal) x0 x1 x3 x4 x5
    = layer (Cert.KernelIdeal.HostVal.agg64 x1 x0) x0 (Cert.KernelIdeal.HostVal.factor x1) x3 x4 (row x5) := by
  unfold val_main_v27 val_main_v25 val_main_v26 val_main_v22 val_main_v24 val_main_v23
  rw [mean1_eq]
  exact hostLin dot_S100000x64_S64x128_S100000x128_1_0_0_1_n_n rfl rfl rfl rfl rfl rfl _ x0 x3 x4 x5 _ _

/-- The second aggregate is the kernel's, of the first layer's rows. -/
theorem agg2_eq : val_main_v37 (F := Ideal) x0 x1 x3 x4 x5
    = Cert.KernelIdeal.HostVal.agg128 x1 (val_main_v27 (F := Ideal) x0 x1 x3 x4 x5) := rfl

/-- The second mean. -/
theorem mean2_eq : val_main_v45 (F := Ideal) x0 x1 x3 x4 x5
    = scaleRows (Cert.KernelIdeal.HostVal.agg128 x1 (val_main_v27 (F := Ideal) x0 x1 x3 x4 x5))
        (Cert.KernelIdeal.HostVal.factor x1) := by
  unfold val_main_v45 val_main_v44 val_main_v43
  rw [agg2_eq]
  exact Cert.MeanForms.divMean_eq_scaleRows scatter_S100000x1_S1600000x1_S1600000x1_1_0_0_1 rfl rfl rfl rfl
    Cert.KernelIdeal.scatter_S100000_S1600000x1_S1600000_n_0_0_1 rfl rfl rfl rfl
    (Cert.KernelIdeal.HostVal.dstCol x1)
    (Cert.KernelIdeal.HostVal.agg128 x1 (val_main_v27 (F := Ideal) x0 x1 x3 x4 x5)) _ _ _ _ _ _

/-- The second layer. -/
theorem layer2_eq : val_main_v51 (F := Ideal) x0 x1 x3 x4 x5 x6 x7 x8
    = layer (Cert.KernelIdeal.HostVal.agg128 x1 (val_main_v27 (F := Ideal) x0 x1 x3 x4 x5))
        (val_main_v27 (F := Ideal) x0 x1 x3 x4 x5) (Cert.KernelIdeal.HostVal.factor x1) x6 x7 (row x8) := by
  unfold val_main_v51 val_main_v49 val_main_v50 val_main_v46 val_main_v48 val_main_v47
  rw [mean2_eq]
  exact hostLin dot_S100000x128_S128x128_S100000x128_1_0_0_1_n_n rfl rfl rfl rfl rfl rfl _
    (val_main_v27 (F := Ideal) x0 x1 x3 x4 x5) x6 x7 x8 _ _

/-- The head's first affine map. -/
theorem head1_eq : val_main_v55 (F := Ideal) x0 x1 x3 x4 x5 x6 x7 x8 x9 x10
    = addRow (mm (val_main_v51 (F := Ideal) x0 x1 x3 x4 x5 x6 x7 x8) x9) (row x10) := by
  unfold val_main_v55 val_main_v52 val_main_v54 val_main_v53
  rw [hostDot_eq_mm dot_S100000x128_S128x32_S100000x32_1_0_0_1_n_n rfl rfl rfl rfl rfl rfl]
  exact hostAddRow _ x10 _ _

/-- The head's second affine map. -/
theorem head2_eq : val_main_v59 (F := Ideal) x0 x1 x3 x4 x5 x6 x7 x8 x9 x10 x11 x12
    = addRow (mm (val_main_v55 (F := Ideal) x0 x1 x3 x4 x5 x6 x7 x8 x9 x10) x11) (row x12) := by
  unfold val_main_v59 val_main_v56 val_main_v58 val_main_v57
  rw [hostDot_eq_mm dot_S100000x32_S32x1_S100000x1_1_0_0_1_n_n rfl rfl rfl rfl rfl rfl]
  exact hostAddRow _ x12 _ _

/-- The reference's result is the network of the arguments, the kernel's function. -/
theorem result_eq : val_main_v59 (F := Ideal) x0 x1 x3 x4 x5 x6 x7 x8 x9 x10 x11 x12
    = Cert.KernelIdeal.HostVal.out x0 x1 x3 x4 x5 x6 x7 x8 x9 x10 x11 x12 := by
  rw [head2_eq, head1_eq, layer2_eq, layer1_eq]
  rfl

end Cert.ReferenceIdeal.RefValue

end
-- ==== Proof.lean ====
/-
  A two-layer mean-aggregating graph network with a two-step linear head, as a tiled accelerator program against its
  array-level reference, compared on the extended reals.

  Both programs gather the feature rows at the edges' sources and sum them by destination, and both count the edges
  arriving at each node.  The kernel multiplies the summed rows by the reciprocal of the count clamped below by one; the
  reference divides by the clamped count.  A count clamped below by one is never zero, and off zero a quotient is the
  product with the reciprocal for every extended real dividend.  The kernel adds a layer's bias row after its two matrix
  products, the reference between them; addition of extended reals is commutative and associative.  A change of float
  format is the identity.  So both programs compute one function of the arguments, with no finiteness asked of them.

  The kernel side: the program is two launches among host operations.  Each launch writes, at every grid point, a block of
  rows of its output that is that block of ONE whole-array function of the arrays it finds, because a row of a layer (and
  of the second layer followed by the head) depends on the same row of its row-wise operands only; the blocks tile the
  output's rows.  Reading the arrays each launch finds back through the host operations to the arguments gives the result
  as the network of the arguments.  The reference side: its run's result term, stage by stage, is the same network.
-/
import proofs.«178692_j18760417149681_2_alg».proof.Defs
import proofs.«178692_j18760417149681_2_alg».proof.Proof.Gen.Kernel
import proofs.«178692_j18760417149681_2_alg».proof.Proof.Gen.Kernel.Frame
import proofs.«178692_j18760417149681_2_alg».proof.Proof.Gen.KernelIdeal
import proofs.«178692_j18760417149681_2_alg».proof.Proof.Gen.KernelIdeal.Frame
import proofs.«178692_j18760417149681_2_alg».proof.Proof.Gen.ReferenceIdeal
import proofs.«178692_j18760417149681_2_alg».proof.Proof.Gen.ReferenceIdeal.Run
import proofs.«178692_j18760417149681_2_alg».proof.Proof.Gen.ReferenceIdeal.Read
import proofs.«178692_j18760417149681_2_alg».proof.Proof.Gen.Pre_finite_inputs
import proofs.«178692_j18760417149681_2_alg».proof.Proof.KernelValue
import proofs.«178692_j18760417149681_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the network of the arguments. -/
theorem algebraic : Cert.algebraic_KernelIdeal_ReferenceIdeal := by
  intro m ρ m' ρ' _ hagree
  refine ⟨fun c => Cert.KernelIdeal.HostVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v59_eq, Cert.ReferenceIdeal.RefValue.result_eq, h0, h1, h3, h4, h5, h6, h7, h8,
    h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
